-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x32 : Shape := ⟨2, ![8388608, 32]⟩
abbrev S32x32 : Shape := ⟨2, ![32, 32]⟩
abbrev S_ : Shape := ⟨0, ![]⟩

class Facts : Prop where
  bcast_S_S8388608x32 : S_.BroadcastsInDim S8388608x32 (![] : Fin 0 → Fin S8388608x32.rank)
  reducesTo_S8388608x32_S_d0_1 : S8388608x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_

variable [Facts]

def fn {F : FTy → Type} [FloatOps F] (main_arg0 : FVec F S8388608x32 .f32) (main_arg1 : FVec F S32x32 .f32) : IVec S_ 1 :=
  let main_v0 : FVec F S8388608x32 .f32 := Host.absf main_arg0
  let main_cst : FVec F S_ .f32 := constant S_ .f32 0x7F800000#32
  let main_v1 : FVec F S8388608x32 .f32 := broadcastInDim S8388608x32 ![] bcast_S_S8388608x32 main_cst
  let main_v2 : IVec S8388608x32 1 := cmpf .olt main_v0 main_v1
  let main_c : IVec S_ 1 := constantI S_ 1 1#1
  let main_v3 : IVec S_ 1 := (fun x v => Host.reduce IntOp.andi x v reducesTo_S8388608x32_S_d0_1 h_S_) main_v2 main_c
  let main_v4 : FVec F S32x32 .f32 := Host.absf main_arg1
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  main_v8
-- ==== Kernel.lean ====
abbrev S8388608x32 : Shape := ⟨2, ![8388608, 32]⟩
abbrev S32x32 : Shape := ⟨2, ![32, 32]⟩
abbrev S2097152x128 : Shape := ⟨2, ![2097152, 128]⟩
abbrev S4x4 : Shape := ⟨2, ![4, 4]⟩
abbrev S_ : Shape := ⟨0, ![]⟩
abbrev S4x1x4x1 : Shape := ⟨4, ![4, 1, 4, 1]⟩
abbrev S1x32x1x32 : Shape := ⟨4, ![1, 32, 1, 32]⟩
abbrev S4x32x4x32 : Shape := ⟨4, ![4, 32, 4, 32]⟩
abbrev S128x128 : Shape := ⟨2, ![128, 128]⟩
abbrev S8192x128 : Shape := ⟨2, ![8192, 128]⟩

abbrev nBuf : Space → Nat
  | .hbm => 19
  | .vmem => 5
  | .smem => 0
  | _ => 0

abbrev bufTy : (tb : Table) → Fin (tcTables nBuf tb) → BufTy
  | .hbm, ⟨0, _⟩ => ⟨S8388608x32, .f32⟩
  | .hbm, ⟨1, _⟩ => ⟨S32x32, .f32⟩
  | .hbm, ⟨2, _⟩ => ⟨S2097152x128, .f32⟩
  | .hbm, ⟨3, _⟩ => ⟨S4x4, .i32⟩
  | .hbm, ⟨4, _⟩ => ⟨S4x4, .i32⟩
  | .hbm, ⟨5, _⟩ => ⟨S_, .i32⟩
  | .hbm, ⟨6, _⟩ => ⟨S4x4, .i32⟩
  | .hbm, ⟨7, _⟩ => ⟨S4x4, .i32⟩
  | .hbm, ⟨8, _⟩ => ⟨S4x4, .i1⟩
  | .hbm, ⟨9, _⟩ => ⟨S4x4, .f32⟩
  | .hbm, ⟨10, _⟩ => ⟨S32x32, .f32⟩
  | .hbm, ⟨11, _⟩ => ⟨S4x1x4x1, .f32⟩
  | .hbm, ⟨12, _⟩ => ⟨S1x32x1x32, .f32⟩
  | .hbm, ⟨13, _⟩ => ⟨S4x32x4x32, .f32⟩
  | .hbm, ⟨14, _⟩ => ⟨S4x32x4x32, .f32⟩
  | .hbm, ⟨15, _⟩ => ⟨S4x32x4x32, .f32⟩
  | .hbm, ⟨16, _⟩ => ⟨S128x128, .f32⟩
  | .hbm, ⟨17, _⟩ => ⟨S2097152x128, .f32⟩
  | .hbm, ⟨18, _⟩ => ⟨S8388608x32, .f32⟩
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S8192x128, .f32⟩
  | .local _ .vmem, ⟨4, _⟩ => ⟨S8192x128, .f32⟩
  | _, _ => ⟨S8388608x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8388608x32_S2097152x128 : S8388608x32.ShapeCasts S2097152x128
  bcast_S_S4x4 : S_.BroadcastsInDim S4x4 (![] : Fin 0 → Fin S4x4.rank)
  transposes_S32x32_S32x32_1_0 : S32x32.Transposes [1, 0] S32x32
  bcast_S4x4_S4x1x4x1_0_2 : S4x4.BroadcastsInDim S4x1x4x1 (![0, 2] : Fin 2 → Fin S4x1x4x1.rank)
  bcast_S32x32_S1x32x1x32_1_3 : S32x32.BroadcastsInDim S1x32x1x32 (![1, 3] : Fin 2 → Fin S1x32x1x32.rank)
  bcast_S4x1x4x1_S4x32x4x32_0_1_2_3 : S4x1x4x1.BroadcastsInDim S4x32x4x32 (![0, 1, 2, 3] : Fin 4 → Fin S4x32x4x32.rank)
  bcast_S1x32x1x32_S4x32x4x32_0_1_2_3 : S1x32x1x32.BroadcastsInDim S4x32x4x32 (![0, 1, 2, 3] : Fin 4 → Fin S4x32x4x32.rank)
  shapeCasts_S4x32x4x32_S128x128 : S4x32x4x32.ShapeCasts S128x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S2097152x128_S8388608x32 : S2097152x128.ShapeCasts S8388608x32
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S2097152x128.size a
  hwx0_0 : ∀ i : grid0.Coords, EltTy.bits .f32 = 32 ∨ (Rect.block (s := S2097152x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S2097152x128.size a
  hwx0_2 : ∀ i : grid0.Coords, EltTy.bits .f32 = 32 ∨ (Rect.block (s := S2097152x128) S8192x128.size (cc0_transform_2 i) (hinb0_2 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8388608x32 : Shape := ⟨2, ![8388608, 32]⟩
abbrev S32x32 : Shape := ⟨2, ![32, 32]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8388608x32, .f32⟩
  | .hbm, ⟨1, _⟩ => ⟨S32x32, .f32⟩
  | .hbm, ⟨2, _⟩ => ⟨S8388608x32, .f32⟩
  | .hbm, ⟨3, _⟩ => ⟨S_, .f32⟩
  | .hbm, ⟨4, _⟩ => ⟨S8388608x32, .f32⟩
  | .hbm, ⟨5, _⟩ => ⟨S8388608x32, .f32⟩
  | _, _ => ⟨S8388608x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]

class Facts₀ : Prop where
  bcast_S_S8388608x32 : S_.BroadcastsInDim S8388608x32 (![] : Fin 0 → Fin S8388608x32.rank)
  dot_S8388608x32_S32x32_S8388608x32_1_1_0_0_n_n_wf : DotDims.WF S8388608x32 S32x32 S8388608x32 [1] [1] [0] [0] [] []

variable [Facts₀]

def dot_S8388608x32_S32x32_S8388608x32_1_1_0_0_n_n : DotDims S8388608x32 S32x32 S8388608x32 where
  lhsContracting := [1]
  rhsContracting := [1]
  lhsNonContracting := [0]
  rhsNonContracting := [0]
  lhsBatch := []
  rhsBatch := []
  wf := dot_S8388608x32_S32x32_S8388608x32_1_1_0_0_n_n_wf

class Facts : Prop extends Facts₀ where

variable [Facts]
-- ==== Proof.LibDot.lean ====
/-
  A matrix product of an M×K by a K×N matrix, contracted over the shared axis, read at an entry as a sum over
  Fin K — for any dimension record with the plain product's dimension numbers — together with the lane sum and
  the few keepdims layout moves the kernel bodies and the host code use, each read at explicit coordinates.
-/
import Idealize.ShloMosaic.PureOps.Ideal.Laws
import Idealize.ShloMosaic.Lib.ValueIdx
import Idealize.ShloMosaic.Lib.Pipeline.Value

namespace Cert.LibDot

open Idealize.ShloMosaic Idealize.ShloMosaic.ValueIdx
open scoped BigOperators

variable {M K N : ℕ}

/-- For the plain dimension numbers (contract the left's axis 1 with the right's axis 0, no batch axes) the
    contraction's sum is the sum over the shared extent of left(p, k) · right(k, q). -/
theorem sum_contr_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  dsimp only at hlc hrc hln hrn hlb hrb
  subst hlc hrc hln hrn hlb hrb
  set d : DotDims ⟨2, ![M, K]⟩ ⟨2, ![K, N]⟩ ⟨2, ![M, N]⟩ := ⟨[1], [0], [0], [1], [], [], wf⟩ with hd
  have hrk : d.contr.rank = 1 := by rw [d.rank_contr]; rfl
  have hsz : d.contr.size ⟨0, by omega⟩ = K := by
    rw [d.size_contr 0 Nat.one_pos]; rfl
  rw [← Equiv.sum_comp (contrEquiv1 d K hrk hsz).symm]
  refine Finset.sum_congr rfl fun k _ => ?_
  have e1 : d.lhsIdx (ix2 p q) ((contrEquiv1 d K hrk hsz).symm k) = ix2 p k := by
    funext a
    match a with
    | ⟨0, _⟩ =>
      apply Fin.ext
      unfold DotDims.lhsIdx
      rfl
    | ⟨1, _⟩ =>
      apply Fin.ext
      exact (d.lhsIdx_val_of_single (cl := 1) rfl _ _).trans (contrEquiv1_symm_val d K hrk hsz k)
  have e2 : d.rhsIdx (ix2 p q) ((contrEquiv1 d K hrk hsz).symm k) = ix2 k q := by
    funext a
    match a with
    | ⟨0, _⟩ =>
      apply Fin.ext
      exact (d.rhsIdx_val_of_single (cr := 0) rfl _ _).trans (contrEquiv1_symm_val d K hrk hsz k)
    | ⟨1, _⟩ =>
      apply Fin.ext
      unfold DotDims.rhsIdx
      rfl
  rw [e1, e2]

/-- A kernel's matrix product into a zero accumulator, with the plain dimension numbers, at entry (p, q). -/
theorem matmul_plain {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr_plain d hlc hrc hln hrn hlb hrb l r p q)

/-- The host's matrix product with the plain dimension numbers at entry (p, q). -/
theorem dotGeneral_plain {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) :=
  (Ideal.dotGeneral_apply d prec _ l r (ix2 p q)).trans (sum_contr_plain d hlc hrc hln hrn hlb hrb l r p q)

end Cert.LibDot
-- ==== Proof.Payload.lean ====
/-
  What the kernel body stores, entry by entry: the block of the folded input times the 128 × 128 weight block,
  contracted over the 128 lanes, then the maximum with zero. The changes of float format are the identity on the
  extended reals, and the product into a zero accumulator is the plain sum of products.
-/
import proofs.«155121_j37606733644003_2_alg».proof.Proof.Gen.KernelIdeal.Skeleton
import proofs.«155121_j37606733644003_2_alg».proof.Proof.LibDot
import Idealize.ShloMosaic.Lib.Pipeline.Value

noncomputable section

namespace Cert.KernelIdeal.Body

open Cert.KernelIdeal Cert.KernelIdeal.Gen Idealize.ShloMosaic Idealize.ShloMosaic.ValueIdx
open scoped BigOperators

/-- The stored value at row p, lane q of the block. -/
theorem pay_apply (x0 : Vec Ideal S8192x128 .f32) (x1 : Vec Ideal S128x128 .f32) (p : Fin 8192) (q : Fin 128) :
    k0_pay1 (F := Ideal) x0 x1 (ix2 p q)
      = max (∑ k : Fin 128, x0 (ix2 p k) * x1 (ix2 k q)) (Ideal.ofBits .f32 0x00000000#32) := by
  unfold k0_pay1
  simp only [shapeCast_self]
  refine (maximumf_apply _ _ _).trans ?_
  refine congrArg₂ max ?_ rfl
  exact Cert.LibDot.matmul_plain (M := 8192) (K := 128) (N := 128) dot_S8192x128_S128x128_S8192x128_1_0_0_1_n_n
    rfl rfl rfl rfl rfl rfl none _ _ p q

end Cert.KernelIdeal.Body

end
-- ==== Proof.Blocks.lean ====
/-
  From blocks to the whole folded output. Grid point t reads rows 8192·t … 8192·t + 8191 of the folded input and
  the whole 128 × 128 weight block, and writes rows 8192·t … 8192·t + 8191 of the output; the 256 points' row
  ranges tile the 2097152 rows. So entry (P, q) of the output array after the run is the maximum with zero of the
  contraction, over the 128 lanes, of row P of the folded input against column q of the weight block.
-/
import proofs.«155121_j37606733644003_2_alg».proof.Proof.Gen.KernelIdeal.Frame
import proofs.«155121_j37606733644003_2_alg».proof.Proof.Payload
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

theorem hz : (![0, 0] : Fin 2 → Nat) = fun _ => 0 := funext fun a => by fin_cases a <;> rfl

/-- Row P of `a` against column q of `b`, contracted over the 128 lanes, then the maximum with zero. -/
def foldedAt (a : S2097152x128.Idx → EReal) (b : S128x128.Idx → EReal) (P : Fin 2097152) (q : Fin 128) : EReal :=
  max (∑ k : Fin 128, a (ix2 P k) * b (ix2 k q)) (Ideal.ofBits .f32 0x00000000#32)

/-- The folded output as one function of the two arrays the region reads. -/
def foldedOut (a : S2097152x128.Idx → EReal) (b : S128x128.Idx → EReal) : S2097152x128.Idx → EReal :=
  fun i => foldedAt a b (i 0) (i 1)

/-- The printed index maps over the grid: the input's and the output's blocks are at row block t, column block 0;
    the weight block is always block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input block at point t is rows 8192·t … of the folded input. -/
theorem iblk0_apply (c : Dev nD) (t : Fin cfg0.N) (x : S8192x128.Idx) (k : S2097152x128.Idx)
    (hk0 : (k 0).val = 8192 * t.val + (x 0).val) (hk1 : (k 1).val = (x 1).val) :
    (iblk m c 0 t : Vec Ideal S8192x128 .f32) x = (V m c main_v0 : S2097152x128.Idx → EReal) k := by
  obtain ⟨e0, e1, -, -, -, -⟩ := idx_facts t
  unfold iblk
  rw [View.read_apply]
  show V m c main_v0 _ = V m c main_v0 _
  congr 1
  funext a
  apply Fin.ext
  match a with
  | ⟨0, _⟩ => show win0_0.index t (0 : Fin 2) * 8192 + 1 * (x 0).val = (k 0).val; rw [e0, hk0]; omega
  | ⟨1, _⟩ => show win0_0.index t (1 : Fin 2) * 128 + 1 * (x 1).val = (k 1).val; rw [e1, hk1]; omega

/-- The weight block at every point is the whole weight array. -/
theorem iblk1_apply (c : Dev nD) (t : Fin cfg0.N) (x : S128x128.Idx) :
    (iblk m c 1 t : Vec Ideal S128x128 .f32) x = (V m c main_v8 : S128x128.Idx → EReal) x := by
  obtain ⟨-, -, e2, e3, -, -⟩ := idx_facts t
  unfold iblk
  rw [View.read_apply]
  show V m c main_v8 _ = V m c main_v8 _
  congr 1
  funext a
  apply Fin.ext
  match a with
  | ⟨0, _⟩ => show win0_1.index t (0 : Fin 2) * 128 + 1 * (x 0).val = (x 0).val; rw [e2]; omega
  | ⟨1, _⟩ => show win0_1.index t (1 : Fin 2) * 128 + 1 * (x 1).val = (x 1).val; rw [e3]; omega

/-- What the body stores at entry j of its block is the folded output at the array index under it. -/
theorem stored_apply (c : Dev nD) (t : Fin cfg0.N) (j : S8192x128.Idx) (i : S2097152x128.Idx)
    (hi0 : (i 0).val = 8192 * t.val + (j 0).val) (hi1 : (i 1).val = (j 1).val) :
    k0_pay1 (F := Ideal) (iblk m c 0 t) (iblk m c 1 t) j = foldedOut (V m c main_v0) (V m c main_v8) i := by
  obtain ⟨p, q, rfl⟩ : ∃ (p : Fin 8192) (q : Fin 128), j = ix2 p q := ⟨j 0, j 1, eq_ix2 j⟩
  refine (Cert.KernelIdeal.Body.pay_apply (iblk m c 0 t) (iblk m c 1 t) p q).trans ?_
  unfold foldedOut foldedAt
  have hq : (i 1) = q := Fin.ext hi1
  refine congrArg₂ max (Finset.sum_congr rfl fun k _ => ?_) rfl
  refine congrArg₂ (· * ·) ?_ ?_
  · exact iblk0_apply m c t (ix2 p k) (ix2 (i 0) k) hi0 rfl
  · rw [hq]
    exact iblk1_apply m c t (ix2 k q)

/-- WHAT POINT t WRITES BACK is block t of the folded output. -/
theorem flushed_eq (c : Dev nD) (t : Fin cfg0.N) :
    (dats m 0 c).flushed 2 t
      = ((cfg0.win 2).blk t).view.read (Elt Ideal) (foldedOut (V m c main_v0) (V m c main_v8)) := by
  show (cfg0.win 2).cut (grid0.coords t) ((dats m 0 c).after 2 t) = _
  rw [after0_2]
  unfold out0_2
  rw [View.canon_unit_zero hz]
  simp only [View.ld_unit_zero (S := S8192x128) hz, View.ld_unit_zero (S := S128x128) hz]
  obtain ⟨-, -, -, -, e4, e5⟩ := idx_facts t
  funext j
  show k0_pay1 (F := Ideal) (iblk m c 0 t) (iblk m c 1 t) j
    = foldedOut (V m c main_v0) (V m c main_v8) (((cfg0.win 2).blk t).view.emb j)
  refine stored_apply m c t j _ ?_ ?_
  · show win0_2.index t (0 : Fin 2) * 8192 + 1 * (j 0).val = 8192 * t.val + (j 0).val
    rw [e4]; omega
  · show win0_2.index t (1 : Fin 2) * 128 + 1 * (j 1).val = (j 1).val
    rw [e5]; omega

/-- An index of the output array is in point t's block iff each coordinate is in the block's range on its axis. -/
theorem mem_blk (t : Fin cfg0.N) (i : S2097152x128.Idx) :
    i ∈ ((cfg0.win 2).blk t).view.set ↔ ∀ a : Fin 2, win0_2.index t a * S8192x128.size a ≤ (i a).val
      ∧ (i a).val < win0_2.index t a * S8192x128.size a + S8192x128.size a := by
  show i ∈ ((View.whole main_v9).slice (win0_2.rect t)).set ↔ _
  rw [View.set_slice_whole, Rect.mem_set_unit]
  exact Iff.rfl

/-- Row P lies in the block of point P / 8192. -/
theorem cover (i : S2097152x128.Idx) :
    ∃ t : Fin cfg0.N, (cfg0.win 2).flush t = true ∧ i ∈ ((cfg0.win 2).blk t).view.set := by
  have hi0 : (i 0).val < 2097152 := (i 0).isLt
  have hi1 : (i 1).val < 128 := (i 1).isLt
  have ht : (i 0).val / 8192 < cfg0.N := by
    show (i 0).val / 8192 < grid0.N
    rw [N_0]; omega
  obtain ⟨-, -, -, -, e4, e5⟩ := idx_facts ⟨(i 0).val / 8192, ht⟩
  have e4' : win0_2.index ⟨(i 0).val / 8192, ht⟩ (0 : Fin 2) = (i 0).val / 8192 := e4
  refine ⟨⟨(i 0).val / 8192, ht⟩, flush0_2 _, ?_⟩
  rw [mem_blk]
  intro a
  match a with
  | ⟨0, _⟩ =>
    show win0_2.index ⟨(i 0).val / 8192, ht⟩ (0 : Fin 2) * 8192 ≤ (i 0).val
      ∧ (i 0).val < win0_2.index ⟨(i 0).val / 8192, ht⟩ (0 : Fin 2) * 8192 + 8192
    rw [e4']; omega
  | ⟨1, _⟩ =>
    show win0_2.index ⟨(i 0).val / 8192, ht⟩ (1 : Fin 2) * 128 ≤ (i 1).val
      ∧ (i 1).val < win0_2.index ⟨(i 0).val / 8192, ht⟩ (1 : Fin 2) * 128 + 128
    rw [e5]; omega

/-- THE OUTPUT ARRAY after the run is the folded output of the two arrays the region read. -/
theorem final (c : Dev nD) :
    (dats m 0 c).arrAt 2 cfg0.N = foldedOut (V m c main_v0) (V m c main_v8) :=
  (dats m 0 c).arrAt_eq_of_cover 2 _ (fun t _ => flushed_eq m c t) cover

end Cert.KernelIdeal.Blocks

end
-- ==== Proof.FoldLaw.lean ====
/-
  Four rows of 32 entries laid side by side fill the 128 lanes of one folded row: lane 32·a + i is entry i of row a.
  A contraction over the 128 lanes against a block-diagonal matrix — the block of lane group a against column
  group c is the identity's entry (a, c) times a 32 × 32 matrix — keeps only the lanes of group c, because a product
  with zero is zero and a product with one is the other factor on every extended real. So the sum over 128 lanes
  is the sum over the 32 entries of row c.
-/
import Idealize.ShloMosaic.PureOps.Ideal.Laws
import Idealize.ShloMosaic.Lib.ValueIdx

namespace Cert.FoldLaw

open Idealize.ShloMosaic Idealize.ShloMosaic.ValueIdx
open scoped BigOperators

/-! ## The layer -/

/-- Output o of row n: the row against the weights of output o, summed over the 32 inputs, then the maximum with
    zero. -/
noncomputable def layerAt (x : (⟨2, ![8388608, 32]⟩ : Shape).Idx → EReal) (W : (⟨2, ![32, 32]⟩ : Shape).Idx → EReal)
    (n : Fin 8388608) (o : Fin 32) : EReal :=
  max (∑ k : Fin 32, x (ix2 n k) * W (ix2 o k)) (Ideal.ofBits .f32 0x00000000#32)

/-- The whole result as one function of the input and the weights. -/
noncomputable def layer (x : (⟨2, ![8388608, 32]⟩ : Shape).Idx → EReal) (W : (⟨2, ![32, 32]⟩ : Shape).Idx → EReal) :
    (⟨2, ![8388608, 32]⟩ : Shape).Idx → EReal :=
  fun i => layerAt x W (i 0) (i 1)

/-! ## Lanes and groups -/

/-- The group (which of the four side-by-side rows) a lane belongs to. -/
def grp (k : Fin 128) : Fin 4 := ⟨k.val / 32, by have := k.isLt; omega⟩

/-- The lane's place inside its group. -/
def off (k : Fin 128) : Fin 32 := ⟨k.val % 32, Nat.mod_lt _ (by decide)⟩

/-- Lane 32·a + i. -/
def lane (a : Fin 4) (i : Fin 32) : Fin 128 := ⟨32 * a.val + i.val, by have := a.isLt; have := i.isLt; omega⟩

theorem grp_lane (a : Fin 4) (i : Fin 32) : grp (lane a i) = a := by
  apply Fin.ext; show (32 * a.val + i.val) / 32 = a.val; have := i.isLt; omega

theorem off_lane (a : Fin 4) (i : Fin 32) : off (lane a i) = i := by
  apply Fin.ext; show (32 * a.val + i.val) % 32 = i.val; have := i.isLt; omega

theorem lane_grp_off (k : Fin 128) : lane (grp k) (off k) = k := by
  apply Fin.ext; show 32 * (k.val / 32) + k.val % 32 = k.val; omega

/-- The 128 lanes are the pairs (group, place). -/
def laneSplit : Fin 4 × Fin 32 ≃ Fin 128 where
  toFun p := lane p.1 p.2
  invFun k := (grp k, off k)
  left_inv p := Prod.ext (grp_lane p.1 p.2) (off_lane p.1 p.2)
  right_inv k := lane_grp_off k

/-- A sum over the lanes, group by group. -/
theorem sum_lanes {M : Type*} [AddCommMonoid M] (f : Fin 128 → M) :
    ∑ k : Fin 128, f k = ∑ a : Fin 4, ∑ i : Fin 32, f (lane a i) := by
  rw [← Equiv.sum_comp laneSplit f, Fintype.sum_prod_type]
  rfl

/-- The contraction against the block-diagonal matrix: with `e` the 4 × 4 identity, the sum over all 128 lanes of
    (row (group k), place k) · (e (group k) c · w (place k)) is the sum over row c alone. No finiteness is needed. -/
theorem fold_sum (xr : Fin 4 → Fin 32 → EReal) (w : Fin 32 → EReal) (e : Fin 4 → Fin 4 → EReal)
    (he : ∀ a c, e a c = if a = c then 1 else 0) (c : Fin 4) :
    ∑ k : Fin 128, xr (grp k) (off k) * (e (grp k) c * w (off k)) = ∑ i : Fin 32, xr c i * w i := by
  rw [sum_lanes, Finset.sum_eq_single c]
  · refine Finset.sum_congr rfl fun i _ => ?_
    rw [grp_lane, off_lane, he, if_pos rfl, one_mul]
  · intro a _ hac
    refine Finset.sum_eq_zero fun i _ => ?_
    rw [grp_lane, off_lane, he, if_neg hac, zero_mul, mul_zero]
  · intro h; exact absurd (Finset.mem_univ c) h

end Cert.FoldLaw
-- ==== Proof.Entry.lean ====
/-
  What the region finds in the two arrays it reads. The first is the input with four consecutive rows laid side by
  side: entry (P, k) of the folded array is entry (4·P + k / 32, k % 32) of the input, the two having the same
  row-major position. The second is the Kronecker product of the 4 × 4 identity with the transposed weights:
  entry (r, s) is the identity's entry (r / 32, s / 32) times the weight of output s % 32 on input r % 32. The
  identity is built from two index grids compared for equality, so its entry is one on the diagonal, zero off it.
-/
import proofs.«155121_j37606733644003_2_alg».proof.Proof.Gen.KernelIdeal.Frame
import proofs.«155121_j37606733644003_2_alg».proof.Proof.FoldLaw
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx Cert.FoldLaw

variable (m : (ℓ : Loc nD τ sig) → Buf (Elt Ideal) ℓ)

/-! ## The folded input -/

/-- The input re-laid with four rows side by side. -/
def foldRows (x : S8388608x32.Idx → EReal) : S2097152x128.Idx → EReal :=
  shapeCast S2097152x128 x shapeCasts_S8388608x32_S2097152x128

/-- Row 4·P + a of the input, as a row index. -/
def rowOf (P : Fin 2097152) (a : Fin 4) : Fin 8388608 := ⟨4 * P.val + a.val, by have := P.isLt; have := a.isLt; omega⟩

theorem foldRows_apply (x : S8388608x32.Idx → EReal) (P : Fin 2097152) (k : Fin 128) :
    foldRows x (ix2 P k) = x (ix2 (rowOf P (grp k)) (off k)) := by
  unfold foldRows
  refine shapeCast_apply x _ (ix2 P k) (ix2 (rowOf P (grp k)) (off k)) ?_
  rw [Shape.rowMajor_val_two, Shape.rowMajor_val_two]
  show (4 * P.val + k.val / 32) * 32 + k.val % 32 = P.val * 128 + k.val
  omega

/-- The region finds the folded input in its first array. -/
theorem V_v0 (c : Dev nD) :
    (V m c main_v0 : S2097152x128.Idx → EReal) = foldRows (m ((c : Thread nD τ).loc main_arg0)) := by
  dsimp only [V, V0]
  simp only [hostOps0, hostOps0_1, List.flatten_cons, List.flatten_nil, List.append_nil, List.cons_append,
    List.nil_append]
  after_results
  rfl

/-! ## The block-diagonal weights -/

/-- The 4 × 4 identity as the host builds it: the row grid compared with the column grid. -/
def eye4 : S4x4.Idx → EReal :=
  uitofp (F := Ideal) .f32 (cmpi .eq (addi (iotaInDim S4x4 32 0) (broadcastInDim S4x4 ![] bcast_S_S4x4 (constantI S_ 32 0#32)))
    (iotaInDim S4x4 32 1))

theorem eye4_apply (a c : Fin 4) : eye4 (ix2 a c) = if a = c then 1 else 0 := by
  have h : ∀ a c : Fin 4, IntOp.cmpi .eq (IntOp.addi (BitVec.ofNat 32 a.val) 0#32) (BitVec.ofNat 32 c.val)
      = if a = c then 1#1 else 0#1 := by decide
  show (((IntOp.cmpi .eq (IntOp.addi (BitVec.ofNat 32 a.val) 0#32) (BitVec.ofNat 32 c.val)).toNat : ℝ) : EReal) = _
  rw [h]
  split_ifs <;> simp

/-- The Kronecker product of the identity with the transposed weights, as the host computes it. -/
def kronW (W : S32x32.Idx → EReal) : S128x128.Idx → EReal :=
  shapeCast S128x128
    (mulf (F := Ideal) (φ := .f32)
      (broadcastInDim S4x32x4x32 ![0, 1, 2, 3] bcast_S4x1x4x1_S4x32x4x32_0_1_2_3
        (broadcastInDim S4x1x4x1 ![0, 2] bcast_S4x4_S4x1x4x1_0_2 eye4))
      (broadcastInDim S4x32x4x32 ![0, 1, 2, 3] bcast_S1x32x1x32_S4x32x4x32_0_1_2_3
        (broadcastInDim S1x32x1x32 ![1, 3] bcast_S32x32_S1x32x1x32_1_3
          (transpose S32x32 [1, 0] W transposes_S32x32_S32x32_1_0))))
    shapeCasts_S4x32x4x32_S128x128

theorem kronW_apply (W : S32x32.Idx → EReal) (r s : Fin 128) :
    kronW W (ix2 r s) = eye4 (ix2 (grp r) (grp s)) * W (ix2 (off s) (off r)) := by
  unfold kronW
  refine (shapeCast_apply _ _ (ix2 r s) (ix4 (grp r) (off r) (grp s) (off s)) ?_).trans ?_
  · rw [Shape.rowMajor_val_four, Shape.rowMajor_val_two]
    show ((r.val / 32 * 32 + r.val % 32) * 4 + s.val / 32) * 32 + s.val % 32 = r.val * 128 + s.val
    omega
  refine (mulf_apply _ _ _).trans ?_
  refine congrArg₂ (· * ·) ?_ ?_
  · refine (broadcastInDim_apply _ _ _ (ix4 (grp r) (off r) (grp s) (off s))
      (ix4 (grp r) (0 : Fin 1) (grp s) (0 : Fin 1)) ?_).trans ?_
    · intro a
      match a with
      | ⟨0, _⟩ => rfl
      | ⟨1, _⟩ => rfl
      | ⟨2, _⟩ => rfl
      | ⟨3, _⟩ => rfl
    refine broadcastInDim_apply _ _ _ (ix4 (grp r) (0 : Fin 1) (grp s) (0 : Fin 1)) (ix2 (grp r) (grp s)) ?_
    intro a
    match a with
    | ⟨0, _⟩ => rfl
    | ⟨1, _⟩ => rfl
  · refine (broadcastInDim_apply _ _ _ (ix4 (grp r) (off r) (grp s) (off s))
      (ix4 (0 : Fin 1) (off r) (0 : Fin 1) (off s)) ?_).trans ?_
    · intro a
      match a with
      | ⟨0, _⟩ => rfl
      | ⟨1, _⟩ => rfl
      | ⟨2, _⟩ => rfl
      | ⟨3, _⟩ => rfl
    refine (broadcastInDim_apply _ _ _ (ix4 (0 : Fin 1) (off r) (0 : Fin 1) (off s)) (ix2 (off r) (off s)) ?_).trans ?_
    · intro a
      match a with
      | ⟨0, _⟩ => rfl
      | ⟨1, _⟩ => rfl
    refine transpose_apply _ _ _ (ix2 (off r) (off s)) (ix2 (off s) (off r)) ?_
    intro b
    match b with
    | ⟨0, _⟩ => rfl
    | ⟨1, _⟩ => rfl

/-- The region finds that product, of the weights as launched, in its second array. -/
theorem V_v8 (c : Dev nD) :
    (V m c main_v8 : S128x128.Idx → EReal) = kronW (m ((c : Thread nD τ).loc main_arg1)) := by
  dsimp only [V, V0]
  simp only [hostOps0, hostOps0_1, List.flatten_cons, List.flatten_nil, List.append_nil, List.cons_append,
    List.nil_append]
  after_results
  rfl

end Cert.KernelIdeal.Entry

end
-- ==== Proof.KernelValue.lean ====
/-
  The kernel's result. After the region the folded output is re-laid as 8388608 rows of 32: entry (n, o) of the
  result is entry (n / 4, 32·(n % 4) + o) of the folded output. There the contraction over the 128 lanes runs
  against column group n % 4 of the block-diagonal weights, so only the lanes of group n % 4 — row n of the input —
  contribute, each with the weight of output o: the layer.
-/
import proofs.«155121_j37606733644003_2_alg».proof.Proof.Blocks
import proofs.«155121_j37606733644003_2_alg».proof.Proof.Entry
import proofs.«155121_j37606733644003_2_alg».proof.Proof.FoldLaw
import Idealize.ShloMosaic.Lib.StableHlo.Run

noncomputable section

namespace Cert.KernelIdeal.Result

open Cert.KernelIdeal Cert.KernelIdeal.Gen Idealize.ShloMosaic Idealize.ShloMosaic.TcCoe Idealize.SL.Sem
open Idealize.ShloMosaic.StableHlo Idealize.ShloMosaic.ValueIdx Cert.FoldLaw
open Cert.KernelIdeal.Entry Cert.KernelIdeal.Blocks
open scoped BigOperators

variable (m : (ℓ : Loc nD τ sig) → Buf (Elt Ideal) ℓ) (ρ : Dev nD → PrngReg)

/-! ## The folded output re-laid as rows of 32 -/

/-- The folded output read as 8388608 rows of 32. -/
def unfoldRows (y : S2097152x128.Idx → EReal) : S8388608x32.Idx → EReal :=
  shapeCast S8388608x32 y shapeCasts_S2097152x128_S8388608x32

/-- The folded row that holds row n. -/
def foldedRow (n : Fin 8388608) : Fin 2097152 := ⟨n.val / 4, by have := n.isLt; omega⟩

/-- Its place among the four rows side by side. -/
def rowGrp (n : Fin 8388608) : Fin 4 := ⟨n.val % 4, Nat.mod_lt _ (by decide)⟩

theorem unfoldRows_apply (y : S2097152x128.Idx → EReal) (n : Fin 8388608) (o : Fin 32) :
    unfoldRows y (ix2 n o) = y (ix2 (foldedRow n) (lane (rowGrp n) o)) := by
  unfold unfoldRows
  refine shapeCast_apply y _ (ix2 n o) (ix2 (foldedRow n) (lane (rowGrp n) o)) ?_
  rw [Shape.rowMajor_val_two, Shape.rowMajor_val_two]
  show n.val / 4 * 128 + (32 * (n.val % 4) + o.val) = n.val * 32 + o.val
  omega

/-- THE BRIDGE: the folded output of the folded input and the block-diagonal weights, re-laid, is the layer. -/
theorem unfold_folded (x : S8388608x32.Idx → EReal) (W : S32x32.Idx → EReal) :
    unfoldRows (foldedOut (foldRows x) (kronW W)) = layer x W := by
  funext i
  obtain ⟨n, o, rfl⟩ : ∃ (n : Fin 8388608) (o : Fin 32), i = ix2 n o := ⟨i 0, i 1, eq_ix2 i⟩
  rw [unfoldRows_apply]
  show foldedAt (foldRows x) (kronW W) (foldedRow n) (lane (rowGrp n) o) = layerAt x W n o
  unfold foldedAt layerAt
  refine congrArg₂ max ?_ rfl
  have h : ∑ k : Fin 128, x (ix2 (rowOf (foldedRow n) (grp k)) (off k))
        * (eye4 (ix2 (grp k) (rowGrp n)) * W (ix2 o (off k)))
      = ∑ i : Fin 32, x (ix2 (rowOf (foldedRow n) (rowGrp n)) i) * W (ix2 o i) :=
    fold_sum (fun a i => x (ix2 (rowOf (foldedRow n) a) i)) (fun i => W (ix2 o i)) (fun a c => eye4 (ix2 a c))
      eye4_apply (rowGrp n)
  have hrow : rowOf (foldedRow n) (rowGrp n) = n :=
    Fin.ext (by show 4 * (n.val / 4) + n.val % 4 = n.val; omega)
  rw [hrow] at h
  refine Eq.trans (Finset.sum_congr rfl fun k _ => ?_) h
  rw [foldRows_apply, kronW_apply, grp_lane, off_lane]

/-! ## The run, read -/

/-- The result buffer after the lines that follow the region: the region's output array, re-laid. -/
theorem tail_eq (c : Dev nD) :
    (Pipeline.afterTail₀ cfgs (dats m) 0 (V0 m) [hostOps1] c main_v10 : S8388608x32.Idx → EReal)
      = unfoldRows ((dats m 0 c).arrAt 2 (cfgs 0).N) := by
  unfold Pipeline.afterTail₀
  show StableHlo.after hostOps1 _ (Proc.devRef .tc main_v10) = _
  after_results
  refine Eq.trans (b := unfoldRows (Pipeline.withArrays (cfgs 0).spec c (V0 m c)
    (fun w => (dats m 0 c).arrAt w (cfgs 0).N) (Proc.devRef .tc (Pipeline.arrRef (cfgs 0).spec 2)))) rfl ?_
  rw [Pipeline.withArrays_arr (cfgs 0).spec launch0.win.arr_inj c (V0 m c) _ 2]

/-- The region's output array, re-laid, is the layer of the arguments as launched. -/
theorem result_eq (c : Dev nD) :
    unfoldRows ((dats m 0 c).arrAt 2 (cfgs 0).N)
      = layer (m ((c : Thread nD τ).loc main_arg0)) (m ((c : Thread nD τ).loc main_arg1)) := by
  rw [show (dats m 0 c).arrAt 2 (cfgs 0).N = foldedOut (V m c main_v0) (V m c main_v8) from Blocks.final m c,
    Entry.V_v0, Entry.V_v8, unfold_folded]

/-- Every weakly fair execution of the kernel's program terminates with the result at the layer of the arguments
    and the arguments unchanged. -/
theorem run : θ_run defs (onTc (τ := τ) (main (F := Ideal))) ⟨m, fun _ => 0, ρ⟩ fun r => ∀ c : Dev nD,
      r.2.mem ((c : Thread nD τ).loc main_v10)
        = layer (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v10 (Pipeline.mem_restRefs_of main_v10 (by decide) (by decide))).trans
        ((tail_eq m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result

end
-- ==== Proof.RefValue.lean ====
/-
  The reference, entry by entry: the product of the input with the transposed weights contracts the 32 inputs,
  and the rectifier is the maximum with zero. That is the layer.
-/
import proofs.«155121_j37606733644003_2_alg».proof.Proof.Gen.ReferenceIdeal.Read
import proofs.«155121_j37606733644003_2_alg».proof.Proof.FoldLaw

noncomputable section

namespace Cert.ReferenceIdeal.RefValue

open Cert.ReferenceIdeal Idealize.ShloMosaic Idealize.ShloMosaic.ValueIdx Cert.FoldLaw
open scoped BigOperators

/-- The reference's last stage is the layer of its two arguments. -/
theorem ref_is_layer (x : S8388608x32.Idx → EReal) (W : S32x32.Idx → EReal) :
    Cert.ReferenceIdeal.Read.val_main_v1 (F := Ideal) x W = layer x W := by
  funext i
  obtain ⟨n, o, rfl⟩ : ∃ (n : Fin 8388608) (o : Fin 32), i = ix2 n o := ⟨i 0, i 1, eq_ix2 i⟩
  rw [Read.val_main_v1_apply, Read.val_main_v0_apply, Read.val_main_call0_v0_apply, Read.val_main_call0_cst_apply]
  have el : ∀ k : Fin 32, Read.lidx_main_v0 (ix2 n o) k = ix2 n k := fun k => funext fun a => by
    match a with
    | ⟨0, _⟩ => rfl
    | ⟨1, _⟩ => rfl
  have er : ∀ k : Fin 32, Read.ridx_main_v0 (ix2 n o) k = ix2 o k := fun k => funext fun a => by
    match a with
    | ⟨0, _⟩ => rfl
    | ⟨1, _⟩ => rfl
  simp only [el, er]
  rfl

end Cert.ReferenceIdeal.RefValue

end
-- ==== Proof.lean ====
/-
  A dense layer with a rectifier: for an input x of 8388608 rows of 32 and weights W of 32 outputs by 32 inputs,
  entry (n, o) of the result is max(∑ᵢ x(n, i) · W(o, i), 0).

  The reference computes exactly that: a product contracting the 32 inputs, then the maximum with zero.

  The kernel lays four consecutive rows of x side by side, so that a folded row has 128 lanes, multiplies the
  folded input by the Kronecker product of the 4 × 4 identity with the transposed weights — a 128 × 128 matrix
  whose block (a, c) is W transposed when a = c and zero otherwise —, takes the maximum with zero block of 8192
  folded rows by block, and re-lays the folded output as rows of 32. On the extended reals the changes of float
  format inside the body are the identity, the product into a zero accumulator is the sum of the products, a
  product with zero is zero and a product with one is the other factor — for every extended real, so the inputs'
  finiteness is never used —, and the sum over the 128 lanes therefore keeps the 32 lanes of one group: row n of x
  against the weights of output o. Both programs end at the same function of their arguments, `Cert.FoldLaw.layer`.

  The modules: FoldLaw (the layer, the lanes as four groups of 32, the block-diagonal contraction), Payload (what
  the body stores, entry by entry), Entry (the folded input and the block-diagonal weights the region finds),
  Blocks (from the 256 points' blocks to the whole folded output), KernelValue (the re-laying after the region and
  the kernel's run), RefValue (the reference is the layer). The idealization rewrote nothing, so the kernel's
  idealized program is the printed one read on the extended reals.
-/
import proofs.«155121_j37606733644003_2_alg».proof.Defs
import proofs.«155121_j37606733644003_2_alg».proof.Proof.Gen.Kernel
import proofs.«155121_j37606733644003_2_alg».proof.Proof.Gen.Kernel.Skeleton
import proofs.«155121_j37606733644003_2_alg».proof.Proof.Gen.Kernel.Launch
import proofs.«155121_j37606733644003_2_alg».proof.Proof.Gen.Kernel.Points
import proofs.«155121_j37606733644003_2_alg».proof.Proof.Gen.Kernel.Frame
import proofs.«155121_j37606733644003_2_alg».proof.Proof.Gen.KernelIdeal
import proofs.«155121_j37606733644003_2_alg».proof.Proof.Gen.KernelIdeal.Skeleton
import proofs.«155121_j37606733644003_2_alg».proof.Proof.Gen.KernelIdeal.Launch
import proofs.«155121_j37606733644003_2_alg».proof.Proof.Gen.KernelIdeal.Points
import proofs.«155121_j37606733644003_2_alg».proof.Proof.Gen.KernelIdeal.Frame
import proofs.«155121_j37606733644003_2_alg».proof.Proof.Gen.ReferenceIdeal
import proofs.«155121_j37606733644003_2_alg».proof.Proof.Gen.ReferenceIdeal.Run
import proofs.«155121_j37606733644003_2_alg».proof.Proof.Gen.ReferenceIdeal.Read
import proofs.«155121_j37606733644003_2_alg».proof.Proof.Gen.Pre_finite_inputs
import proofs.«155121_j37606733644003_2_alg».proof.Proof.KernelValue
import proofs.«155121_j37606733644003_2_alg».proof.Proof.RefValue
import Idealize.ShloMosaic.Adequacy
import Idealize.ShloMosaic.Init

noncomputable section

namespace Cert.Proof

open Idealize.ShloMosaic Idealize.ShloMosaic.TcCoe Idealize.SL.Sem

/-- The kernel's program as printed runs, and leaves its arguments as they were. -/
theorem frame_kernel : Cert.frame_Kernel := fun m ρ _ => Cert.Kernel.Gen.frame m ρ

/-- So does the same program read on the extended reals. -/
theorem frame_kernel_ideal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals the kernel's result array ends at the layer of its arguments, and the reference's at the
    layer of its own; the arguments agree, so the results are equal entry by entry. -/
theorem algebraic : Cert.algebraic_KernelIdeal_ReferenceIdeal := by
  intro m ρ m' ρ' _ hagree
  refine ⟨fun c => Cert.FoldLaw.layer (m ((c : Thread Cert.KernelIdeal.nD Cert.KernelIdeal.τ).loc Cert.KernelIdeal.main_arg0))
    (m ((c : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.ref_is_layer, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
